-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000x128x3 : Shape := ⟨4, ![64, 1000, 128, 3]⟩
abbrev S64x1 : Shape := ⟨2, ![64, 1]⟩
abbrev S_ : Shape := ⟨0, ![]⟩

class Facts : Prop where
  bcast_S_S64x1000x128x3 : S_.BroadcastsInDim S64x1000x128x3 (![] : Fin 0 → Fin S64x1000x128x3.rank)
  reducesTo_S64x1000x128x3_S_d0_1_2_3 : S64x1000x128x3.ReducesTo [0, 1, 2, 3] S_
  h_S_ : 0 < S_.numel
  bcast_S_S64x1 : S_.BroadcastsInDim S64x1 (![] : Fin 0 → Fin S64x1.rank)
  reducesTo_S64x1_S_d0_1 : S64x1.ReducesTo [0, 1] S_
  reducesTo_S_S_d : S_.ReducesTo [] S_

variable [Facts]

def fn {F : FTy → Type} [FloatOps F] (main_arg0 : FVec F S64x1000x128x3 .f32) (main_arg1 : FVec F S64x1 .f32) (main_arg2 : FVec F S_ .f32) : IVec S_ 1 :=
  let main_v0 : FVec F S64x1000x128x3 .f32 := Host.absf main_arg0
  let main_cst : FVec F S_ .f32 := constant S_ .f32 0x7F800000#32
  let main_v1 : FVec F S64x1000x128x3 .f32 := broadcastInDim S64x1000x128x3 ![] bcast_S_S64x1000x128x3 main_cst
  let main_v2 : IVec S64x1000x128x3 1 := cmpf .olt main_v0 main_v1
  let main_c : IVec S_ 1 := constantI S_ 1 1#1
  let main_v3 : IVec S_ 1 := (fun x v => Host.reduce IntOp.andi x v reducesTo_S64x1000x128x3_S_d0_1_2_3 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S64x1000x128x3 : Shape := ⟨4, ![64, 1000, 128, 3]⟩
abbrev S64x1 : Shape := ⟨2, ![64, 1]⟩
abbrev S_ : Shape := ⟨0, ![]⟩
abbrev S32x1 : Shape := ⟨2, ![32, 1]⟩
abbrev S32x8x128x3 : Shape := ⟨4, ![32, 8, 128, 3]⟩
abbrev S32x8x128 : Shape := ⟨3, ![32, 8, 128]⟩
abbrev S32x1x1 : Shape := ⟨3, ![32, 1, 1]⟩
abbrev S32x8 : Shape := ⟨2, ![32, 8]⟩
abbrev S32x8x1 : Shape := ⟨3, ![32, 8, 1]⟩
abbrev S64 : Shape := ⟨1, ![64]⟩

abbrev nBuf : Space → Nat
  | .hbm => 53
  | .vmem => 7
  | .smem => 0
  | _ => 0

abbrev bufTy : (tb : Table) → Fin (tcTables nBuf tb) → BufTy
  | .hbm, ⟨0, _⟩ => ⟨S64x1000x128x3, .f32⟩
  | .hbm, ⟨1, _⟩ => ⟨S64x1, .f32⟩
  | .hbm, ⟨2, _⟩ => ⟨S_, .f32⟩
  | .hbm, ⟨3, _⟩ => ⟨S64x1, .f32⟩
  | .hbm, ⟨4, _⟩ => ⟨S_, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x1, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .local _ .vmem, ⟨0, _⟩ => ⟨S32x1, .f32⟩
  | .local _ .vmem, ⟨1, _⟩ => ⟨S32x1, .f32⟩
  | .local _ .vmem, ⟨2, _⟩ => ⟨S32x8x128x3, .f32⟩
  | .local _ .vmem, ⟨3, _⟩ => ⟨S32x8x128x3, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | _, _ => ⟨S64x1000x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v26 : BitVec 1 := Scalar.cmpi .eq arg1 c124_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x8x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S64x1 : S_.BroadcastsInDim S64x1 (![] : Fin 0 → Fin S64x1.rank)
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x8x128x3_S32x8x128x3_0_0_0_0 : ∀ a, (![0, 0, 0, 0] : Fin 4 → Nat) a + S32x8x128x3.size a ≤ S32x8x128x3.size a
  h_S32x8x128x3 : 0 < S32x8x128x3.numel
  reduces_S32x8x128x3_S32x8x128 : S32x8x128x3.Reduces [3] S32x8x128
  shapeCasts_S32x1_S32x1x1 : S32x1.ShapeCasts S32x1x1
  broadcasts_S32x1x1_S32x8x128 : S32x1x1.Broadcasts S32x8x128
  reduces_S32x8x128_S32x8 : S32x8x128.Reduces [2] S32x8
  shapeCasts_S32x8_S32x8x1 : S32x8.ShapeCasts S32x8x1
  reduces_S32x8x1_S32x1 : S32x8x1.Reduces [1] S32x1
  shapeCasts_S32x1x1_S32x1 : S32x1x1.ShapeCasts S32x1
  shapeCasts_S64x1_S64 : S64x1.ShapeCasts S64
  bcast_S_S64 : S_.BroadcastsInDim S64 (![] : Fin 0 → Fin S64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S64x1.size a
  hwx0_0 : ∀ i : grid0.Coords, EltTy.bits .f32 = 32 ∨ (Rect.block (s := S64x1) S32x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x128x3.size a ≤ S64x1000x128x3.size a
  hwx0_1 : ∀ i : grid0.Coords, EltTy.bits .f32 = 32 ∨ (Rect.block (s := S64x1000x128x3) S32x8x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_v4) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x8x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1000x128x3 : Shape := ⟨4, ![64, 1000, 128, 3]⟩
abbrev S64x1 : Shape := ⟨2, ![64, 1]⟩
abbrev S_ : Shape := ⟨0, ![]⟩
abbrev S64x1x1 : Shape := ⟨3, ![64, 1, 1]⟩
abbrev S64x1000x128 : Shape := ⟨3, ![64, 1000, 128]⟩
abbrev S64 : Shape := ⟨1, ![64]⟩

abbrev nBuf : Space → Nat
  | .hbm => 66
  | .vmem => 0
  | .smem => 0
  | _ => 0

abbrev bufTy : (tb : Table) → Fin (tcTables nBuf tb) → BufTy
  | .hbm, ⟨0, _⟩ => ⟨S64x1000x128x3, .f32⟩
  | .hbm, ⟨1, _⟩ => ⟨S64x1, .f32⟩
  | .hbm, ⟨2, _⟩ => ⟨S_, .f32⟩
  | .hbm, ⟨3, _⟩ => ⟨S64x1, .f32⟩
  | .hbm, ⟨4, _⟩ => ⟨S_, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x1x1, .f32⟩
  | .hbm, ⟨11, _⟩ => ⟨S64x1000x128x3, .f32⟩
  | .hbm, ⟨12, _⟩ => ⟨S_, .f32⟩
  | .hbm, ⟨13, _⟩ => ⟨S64x1000x128, .f32⟩
  | .hbm, ⟨14, _⟩ => ⟨S_, .f32⟩
  | .hbm, ⟨15, _⟩ => ⟨S64x1000x128, .f32⟩
  | .hbm, ⟨16, _⟩ => ⟨S64x1000x128, .i1⟩
  | .hbm, ⟨17, _⟩ => ⟨S64x1000x128, .f32⟩
  | .hbm, ⟨18, _⟩ => ⟨S64x1000x128, .f32⟩
  | .hbm, ⟨19, _⟩ => ⟨S64x1000x128, .f32⟩
  | .hbm, ⟨20, _⟩ => ⟨S_, .f32⟩
  | .hbm, ⟨21, _⟩ => ⟨S64x1000x128, .f32⟩
  | .hbm, ⟨22, _⟩ => ⟨S64x1000x128, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | _, _ => ⟨S64x1000x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S64x1 : S_.BroadcastsInDim S64x1 (![] : Fin 0 → Fin S64x1.rank)
  shapeCasts_S64x1_S64x1x1 : S64x1.ShapeCasts S64x1x1
  reducesTo_S64x1000x128x3_S64x1000x128_d3 : S64x1000x128x3.ReducesTo [3] S64x1000x128
  h_S_ : 0 < S_.numel
  bcast_S_S64x1000x128 : S_.BroadcastsInDim S64x1000x128 (![] : Fin 0 → Fin S64x1000x128.rank)
  bcast_S64x1x1_S64x1000x128_0_1_2 : S64x1x1.BroadcastsInDim S64x1000x128 (![0, 1, 2] : Fin 3 → Fin S64x1000x128.rank)
  reducesTo_S64x1000x128_S64_d1_2 : S64x1000x128.ReducesTo [1, 2] S64
  shapeCasts_S64x1_S64 : S64x1.ShapeCasts S64
  bcast_S_S64 : S_.BroadcastsInDim S64 (![] : Fin 0 → Fin S64.rank)

variable [Facts₀]

class Facts : Prop extends Facts₀ where

variable [Facts]
-- ==== Proof.PieceValue.lean ====
/-
  What each case of the body leaves behind, as values.  The frame run finds, per case, the list of stores into the
  running column (and, at the last point of a row block, into the output block); read back, the first case leaves the
  point's column computed from the zero column, the other two leave it computed from the column the point before left,
  and the last case copies that column into the output block.
-/
import proofs.«168247_j36481452212940_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Piece

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle point: the running column `xs` becomes the point's column over it. -/
theorem sout_B (c : Dev nD) (i : grid0.Coords) (a2 : Memref sig .tc .vmem S32x1 .f32) (h2 : a2.IsWhole)
    (a3 : Memref sig .tc .vmem S32x8x128x3 .f32) (h3 : a3.IsWhole) (a4 : Memref sig .tc .vmem S32x1 .f32) (h4 : a4.IsWhole)
    (a5 : Memref sig .tc .vmem S32x1 .f32) (h5 : a5.IsWhole) (hc0 : ¬cond0_0 i) (hc1 : ¬cond0_1 i)
    (x0 : Vec F S32x1 .f32) (x1 : Vec F S32x8x128x3 .f32) (xs : Vec F S32x1 .f32) :
    sout0_B_0 c i a2 h2 a3 h3 a4 h4 a5 h5 hc0 hc1 x0 x1 xs = k0_pay2 x1 x0 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread, View.ld_unit_zero (S := S32x1) hz2,
    View.ld_unit_zero (S := S32x8x128x3) hz4]

/-- The last point of a row block: the same column is left in the running column, -/
theorem sout_C (c : Dev nD) (i : grid0.Coords) (a2 : Memref sig .tc .vmem S32x1 .f32) (h2 : a2.IsWhole)
    (a3 : Memref sig .tc .vmem S32x8x128x3 .f32) (h3 : a3.IsWhole) (a4 : Memref sig .tc .vmem S32x1 .f32) (h4 : a4.IsWhole)
    (a5 : Memref sig .tc .vmem S32x1 .f32) (h5 : a5.IsWhole) (hc0 : ¬cond0_0 i) (hc1 : cond0_1 i)
    (x0 : Vec F S32x1 .f32) (x1 : Vec F S32x8x128x3 .f32) (xs : Vec F S32x1 .f32) :
    sout0_C_0 c i a2 h2 a3 h3 a4 h4 a5 h5 hc0 hc1 x0 x1 xs = k0_pay2 x1 x0 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S32x1) hz2,
    View.ld_unit_zero (S := S32x8x128x3) hz4]

/-- and copied into the output block. -/
theorem out_C (c : Dev nD) (i : grid0.Coords) (a2 : Memref sig .tc .vmem S32x1 .f32) (h2 : a2.IsWhole)
    (a3 : Memref sig .tc .vmem S32x8x128x3 .f32) (h3 : a3.IsWhole) (a4 : Memref sig .tc .vmem S32x1 .f32) (h4 : a4.IsWhole)
    (a5 : Memref sig .tc .vmem S32x1 .f32) (h5 : a5.IsWhole) (hc0 : ¬cond0_0 i) (hc1 : cond0_1 i)
    (x0 : Vec F S32x1 .f32) (x1 : Vec F S32x8x128x3 .f32) (xs : Vec F S32x1 .f32) :
    out0_C_2 c i a2 h2 a3 h3 a4 h4 a5 h5 hc0 hc1 x0 x1 xs = k0_pay2 x1 x0 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_cons_unit_zero (S := S32x1) hz2, View.readCov_unit_zero (S := S32x1) _ hz2]
  simp only [View.readAt_eq_ld, h2.read_unread, h3.read_unread, h5.read_unread, View.ld_unit_zero (S := S32x1) hz2,
    View.ld_unit_zero (S := S32x8x128x3) hz4]

/-- The first point of a row block: the zero column is stored, read back, and becomes the point's column over it. -/
theorem sout_A (c : Dev nD) (i : grid0.Coords) (a2 : Memref sig .tc .vmem S32x1 .f32) (h2 : a2.IsWhole)
    (a3 : Memref sig .tc .vmem S32x8x128x3 .f32) (h3 : a3.IsWhole) (a4 : Memref sig .tc .vmem S32x1 .f32) (h4 : a4.IsWhole)
    (a5 : Memref sig .tc .vmem S32x1 .f32) (h5 : a5.IsWhole) (hc0 : cond0_0 i) (hc1 : ¬cond0_1 i)
    (x0 : Vec F S32x1 .f32) (x1 : Vec F S32x8x128x3 .f32) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, View.ld_unit_zero (S := S32x1) hz2,
    View.ld_unit_zero (S := S32x8x128x3) hz4]

end Cert.KernelIdeal.Piece

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.Spec.lean ====
/-
  The trajectory score, as mathematics over the extended reals.

  An observation is a 3-vector `u`; `norm2 u = ∑ k < 3, u k * u k` is its squared length.  With a per-row exponent `b`
  the observation scores `score b (norm2 u) = exp (b * norm2 u)` when its squared length is below the threshold word
  θ = 0x3A9FB0E8, and the zero word otherwise.  Row `i` of the result is the sum of the scores of the row's 1000 × 128
  observations.  The kernel walks the 1000 time steps in 125 tiles of 8: `rowTile` is one tile's share of a row and
  `rawScore` the sum of the 125 shares; `rawScore_eq` says this is the sum over all 1000 × 128 at once, which is only
  a regrouping of a finite sum in a commutative monoid (no term is moved across a product, so infinite entries are
  harmless).
-/
import Idealize.ShloMosaic.PureOps.Ideal
import Idealize.ShloMosaic.Lib.ValueIdx
import proofs.«168247_j36481452212940_1_alg».proof.Proof.LibBlockSum

noncomputable section

open Idealize.ShloMosaic Idealize.ShloMosaic.ValueIdx
open scoped BigOperators

namespace Cert.Spec

/-- The squared length of a 3-vector, as a plain sum of squares. -/
def norm2 (u : Fin 3 → EReal) : EReal := ∑ k : Fin 3, u k * u k

/-- The masked score: `exp (b * n)` where `n` is below the threshold word, the zero word elsewhere. -/
def score (b n : EReal) : EReal :=
  Scalar.select (Ideal.cmp .olt n (Ideal.ofBits .f32 0x3A9FB0E8#32)) (Ideal.exp (b * n)) (Ideal.ofBits .f32 0x00000000#32)

/-- The observations, 64 rows of 1000 time steps of 128 lanes of 3 coordinates; the exponents, one per row. -/
abbrev Obs : Type := (⟨4, ![64, 1000, 128, 3]⟩ : Shape).Idx → EReal
abbrev Expo : Type := (⟨2, ![64, 1]⟩ : Shape).Idx → EReal

/-- The score of the observation at row `i`, time step `t`, lane `o`. -/
def obsScore (z : Obs) (b : Expo) (i : Fin 64) (t : Fin 1000) (o : Fin 128) : EReal :=
  score (b (ix2 i 0)) (norm2 fun k => z (ix4 i t o k))

/-- Time step `r` of tile `k` is time step `8 k + r`. -/
theorem step_lt (k : Fin 125) (r : Fin 8) : k.val * 8 + r.val < 1000 := by
  have := k.isLt; have := r.isLt; omega

/-- Tile `k`'s share of row `i`: its 8 time steps of 128 lanes. -/
def rowTile (z : Obs) (b : Expo) (i : Fin 64) (k : Fin 125) : EReal :=
  ∑ r : Fin 8, ∑ o : Fin 128, obsScore z b i ⟨k.val * 8 + r.val, step_lt k r⟩ o

/-- Row `i` of the result, tile by tile. -/
def rawScore (z : Obs) (b : Expo) (i : Fin 64) : EReal := ∑ k : Fin 125, rowTile z b i k

/-- Tile by tile is all at once: the 1000 time steps are the 125 tiles of 8. -/
theorem rawScore_eq (z : Obs) (b : Expo) (i : Fin 64) :
    rawScore z b i = ∑ t : Fin 1000, ∑ o : Fin 128, obsScore z b i t o := by
  unfold rawScore rowTile
  exact (Cert.Lib.BlockSum.sum_fin_blocks (a := 125) (b := 8) (N := 1000) rfl
    (fun t => ∑ o : Fin 128, obsScore z b i t o)).symm

end Cert.Spec

end
-- ==== Proof.TileValue.lean ====
/-
  One grid point of the kernel, as mathematics.  The body loads a 32×8×128×3 block `z` of the observations, a 32×1
  column `b` of per-row exponents and the 32×1 running column `acc`, and stores back
  `acc p + ∑ r < 8, ∑ o < 128, score (b p) (norm2 (z p r o))` (the specification's score and squared length).  This
  module reads that stored column at a row
  `p`: every layout step (the unit axes put in and taken out, the column spread over the block) keeps the row, and each
  of the three lane sums, started at the zero word, is the plain sum over its axis.
-/
import proofs.«168247_j36481452212940_1_alg».proof.Proof.Gen.KernelIdeal.Skeleton
import Idealize.ShloMosaic.Lib.ValueIdx
import Idealize.ShloMosaic.Lib.Pipeline.Value
import Idealize.ShloMosaic.PureOps.Ideal.Laws
import proofs.«168247_j36481452212940_1_alg».proof.Proof.Spec

noncomputable section

open Idealize.ShloMosaic Idealize.ShloMosaic.ValueIdx
open scoped BigOperators

namespace Cert.KernelIdeal.Tile

open Cert.KernelIdeal Cert.KernelIdeal.Gen Cert.Spec

/-- What one grid point adds to row `p` of the running column: the scores of the block's 8 × 128 observations of that row. -/
def tileSum (z : FVec Ideal S32x8x128x3 .f32) (b : FVec Ideal S32x1 .f32) (p : Fin 32) : EReal :=
  ∑ r : Fin 8, ∑ o : Fin 128, score (b (ix2 p 0)) (norm2 fun k => z (ix4 p r o k))

/-- The sum of squares along the last axis, started at the zero word, at an entry. -/
theorem sumsq_apply (z : FVec Ideal S32x8x128x3 .f32) (hacc : (0x00000000#32 : BitVec 32) = 0x00000000#32)
    (p : Fin 32) (r : Fin 8) (o : Fin 128) :
    multiReduction (F := Ideal) .add [3] S32x8x128 (mulf z z) 0x00000000#32 reduces_S32x8x128x3_S32x8x128 (.inl rfl) hacc (ix3 p r o)
      = norm2 fun k => z (ix4 p r o k) := by
  refine (Ideal.multiReduction_add_single (mulf z z) 0x00000000#32 reduces_S32x8x128x3_S32x8x128 (.inl rfl) hacc (ix3 p r o)).trans ?_
  unfold norm2
  refine Finset.sum_congr rfl fun k _ => ?_
  have e : reduces_S32x8x128x3_S32x8x128.lift (ix3 p r o) k = ix4 p r o k :=
    funext fun a => Fin.ext (by match a with | ⟨0, _⟩ => rfl | ⟨1, _⟩ => rfl | ⟨2, _⟩ => rfl | ⟨3, _⟩ => rfl)
  rw [e]; rfl

/-- The sum along the 128 lanes, started at the zero word, at an entry. -/
theorem laneSum_apply (v : FVec Ideal S32x8x128 .f32) (hacc : (0x00000000#32 : BitVec 32) = 0x00000000#32)
    (p : Fin 32) (r : Fin 8) :
    multiReduction (F := Ideal) .add [2] S32x8 v 0x00000000#32 reduces_S32x8x128_S32x8 (.inl rfl) hacc (ix2 p r)
      = ∑ o : Fin 128, v (ix3 p r o) := by
  refine (Ideal.multiReduction_add_single v 0x00000000#32 reduces_S32x8x128_S32x8 (.inl rfl) hacc (ix2 p r)).trans ?_
  refine Finset.sum_congr rfl fun o _ => congrArg v ?_
  exact funext fun a => Fin.ext (by match a with | ⟨0, _⟩ => rfl | ⟨1, _⟩ => rfl | ⟨2, _⟩ => rfl)

/-- The 32×8 array of lane sums given a trailing unit axis and summed down its 8 rows, started at the zero word, at a row. -/
theorem rowSum_apply (w : FVec Ideal S32x8 .f32) (hacc : (0x00000000#32 : BitVec 32) = 0x00000000#32) (p : Fin 32) :
    multiReduction (F := Ideal) .add [1] S32x1 (shapeCast S32x8x1 w shapeCasts_S32x8_S32x8x1) 0x00000000#32
        reduces_S32x8x1_S32x1 (.inl rfl) hacc (ix2 p 0)
      = ∑ r : Fin 8, w (ix2 p r) := by
  refine (Ideal.multiReduction_add_single _ 0x00000000#32 reduces_S32x8x1_S32x1 (.inl rfl) hacc (ix2 p 0)).trans ?_
  refine Finset.sum_congr rfl fun r _ => ?_
  have e : reduces_S32x8x1_S32x1.lift (ix2 p 0) r = ix3 p r 0 :=
    funext fun a => Fin.ext (by match a with | ⟨0, _⟩ => rfl | ⟨1, _⟩ => rfl | ⟨2, _⟩ => rfl)
  rw [e]
  refine shapeCast_apply w shapeCasts_S32x8_S32x8x1 (ix3 p r 0) (ix2 p r) ?_
  rw [Shape.rowMajor_val_two, Shape.rowMajor_val_three]
  simp

/-- The column of exponents, given two unit axes and spread over the 32×8×128 block, keeps its row. -/
theorem spread_apply (b : FVec Ideal S32x1 .f32) (p : Fin 32) (r : Fin 8) (o : Fin 128) :
    broadcastTo S32x8x128 (shapeCast S32x1x1 (shapeCast S32x1 b shapeCasts_S32x1_S32x1) shapeCasts_S32x1_S32x1x1)
        broadcasts_S32x1x1_S32x8x128 (ix3 p r o) = b (ix2 p 0) := by
  rw [shapeCast_self]
  refine (broadcastTo_apply _ broadcasts_S32x1x1_S32x8x128 (ix3 p r o) (ix3 p 0 0) ?_).trans ?_
  · intro a
    match a with
    | ⟨0, _⟩ => rfl
    | ⟨1, _⟩ => rfl
    | ⟨2, _⟩ => rfl
  · refine shapeCast_apply b shapeCasts_S32x1_S32x1x1 (ix3 p 0 0) (ix2 p 0) ?_
    rw [Shape.rowMajor_val_two, Shape.rowMajor_val_three]
    simp

/-- THE POINT'S VALUE.  The column the body stores back, at row `p`: the running column's entry plus the scores of the
    block's observations of that row. -/
theorem pay2_apply (z : FVec Ideal S32x8x128x3 .f32) (b acc : FVec Ideal S32x1 .f32) (p : Fin 32) :
    k0_pay2 (F := Ideal) z b acc (ix2 p 0) = acc (ix2 p 0) + tileSum z b p := by
  unfold k0_pay2
  dsimp only
  rw [shapeCast_self, shapeCast_shapeCast, addf_apply]
  refine congrArg (acc (ix2 p 0) + ·) ?_
  refine (rowSum_apply _ _ p).trans ?_
  unfold tileSum
  refine Finset.sum_congr rfl fun r _ => ?_
  refine (laneSum_apply _ _ p r).trans ?_
  refine Finset.sum_congr rfl fun o _ => ?_
  rw [select_apply, cmpf_apply]
  show Scalar.select (FloatOps.cmpf .olt _ _) (FloatOps.exp (_ * _)) _ = _
  rw [sumsq_apply z _ p r o, spread_apply b p r o]
  rfl

/-- The column the first point of a row block stores before accumulating is zero everywhere. -/
theorem pay1_apply (j : S32x1.Idx) : k0_pay1 (F := Ideal) j = 0 := by
  unfold k0_pay1
  rw [shapeCast_self, broadcast_apply]
  exact Ideal.ofBits_zero_f32

end Cert.KernelIdeal.Tile

end
-- ==== Proof.BlockRead.lean ====
/-
  Where a grid point's blocks sit in their arrays.  The grid is 2 row blocks by 125 time tiles, walked row block first:
  point `t` is tile `t % 125` of row block `t / 125`.  Its block of observations holds rows `32 (t / 125) + p`, time
  steps `8 (t % 125) + r`, all 128 lanes and all 3 coordinates; its block of exponents, and the output block, hold the
  same 32 rows.
-/
import proofs.«168247_j36481452212940_1_alg».proof.Proof.Gen.KernelIdeal.Frame
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KernelIdeal.Block

open Cert.KernelIdeal Cert.KernelIdeal.Gen

variable {F : FTy → Type} [FloatOps F]
variable (m : (ℓ : Loc nD τ sig) → Buf (Elt F) ℓ)

/-- The three windows' block indices at every grid point. -/
theorem idx_facts : ∀ t : Fin cfg0.N,
    win0_0.index t (0 : Fin 2) = t.val / 125 ∧ win0_0.index t (1 : Fin 2) = 0
    ∧ win0_1.index t (0 : Fin 4) = t.val / 125 ∧ win0_1.index t (1 : Fin 4) = t.val % 125
    ∧ win0_1.index t (2 : Fin 4) = 0 ∧ win0_1.index t (3 : Fin 4) = 0
    ∧ win0_2.index t (0 : Fin 2) = t.val / 125 ∧ win0_2.index t (1 : Fin 2) = 0 :=
  (by decide +kernel : ∀ t : Fin grid0.N, _)

/-- An entry of the point's block of observations is the array's entry at the block's place. -/
theorem zblk_apply (c : Dev nD) (t : Fin cfg0.N) (p : Fin 32) (r : Fin 8) (o : Fin 128) (k : Fin 3)
    (i0 : Fin 64) (i1 : Fin 1000) (h0 : i0.val = 32 * (t.val / 125) + p.val) (h1 : i1.val = t.val % 125 * 8 + r.val) :
    (iblk m c 1 t : Vec F S32x8x128x3 .f32) (ix4 p r o k) = V m c main_arg0 (ix4 i0 i1 o k) := by
  obtain ⟨-, -, e0, e1, e2, e3, -, -⟩ := idx_facts t
  unfold iblk
  rw [View.read_apply]
  show V m c main_arg0 _ = V m c main_arg0 _
  congr 1
  funext a
  apply Fin.ext
  match a with
  | ⟨0, _⟩ => show win0_1.index t (0 : Fin 4) * 32 + 1 * p.val = i0.val; omega
  | ⟨1, _⟩ => show win0_1.index t (1 : Fin 4) * 8 + 1 * r.val = i1.val; omega
  | ⟨2, _⟩ => show win0_1.index t (2 : Fin 4) * 128 + 1 * o.val = o.val; omega
  | ⟨3, _⟩ => show win0_1.index t (3 : Fin 4) * 3 + 1 * k.val = k.val; omega

/-- An entry of the point's block of exponents is the array's entry of the same row. -/
theorem bblk_apply (c : Dev nD) (t : Fin cfg0.N) (p : Fin 32) (i0 : Fin 64) (h0 : i0.val = 32 * (t.val / 125) + p.val) :
    (iblk m c 0 t : Vec F S32x1 .f32) (ix2 p 0) = V m c main_v4 (ix2 i0 0) := by
  obtain ⟨e0, e1, -, -, -, -, -, -⟩ := idx_facts t
  unfold iblk
  rw [View.read_apply]
  show V m c main_v4 _ = V m c main_v4 _
  congr 1
  funext a
  apply Fin.ext
  match a with
  | ⟨0, _⟩ => show win0_0.index t (0 : Fin 2) * 32 + 1 * p.val = i0.val; omega
  | ⟨1, _⟩ => show win0_0.index t (1 : Fin 2) * 1 + 1 * 0 = 0; omega

end Cert.KernelIdeal.Block

end
-- ==== Proof.LibPrefixSum.lean ====
/-
  Running sums over an initial segment of `Fin N`.

  The sum of the entries of index at most `n`, written as a sum over all of `Fin N` with the later entries replaced by
  zero, starts at the first entry, grows by the entry of index `n + 1` when `n` does, and is the whole sum once `n`
  has reached the last index.  The sums are in any commutative monoid.
-/
import Mathlib.Algebra.BigOperators.Fin

open scoped BigOperators

namespace Cert.Lib.PrefixSum

/-- The entries of index at most `0`: the first entry alone. -/
theorem prefix_zero {M : Type*} [AddCommMonoid M] {N : ℕ} (f : Fin N → M) (j : Fin N) (hj : j.val = 0) :
    (∑ k : Fin N, if k.val ≤ 0 then f k else 0) = f j := by
  rw [Finset.sum_eq_single j]
  · rw [if_pos (by omega)]
  · intro k _ hk
    rw [if_neg]
    intro h
    exact hk (Fin.ext (by omega))
  · intro h
    exact absurd (Finset.mem_univ j) h

/-- One more index: the running sum grows by that entry. -/
theorem prefix_succ {M : Type*} [AddCommMonoid M] {N : ℕ} (f : Fin N → M) (n : ℕ) (j : Fin N) (hj : j.val = n + 1) :
    (∑ k : Fin N, if k.val ≤ n + 1 then f k else 0) = (∑ k : Fin N, if k.val ≤ n then f k else 0) + f j := by
  have e : f j = ∑ k : Fin N, if k = j then f k else 0 := by
    rw [Finset.sum_ite_eq' Finset.univ j f, if_pos (Finset.mem_univ j)]
  rw [e, ← Finset.sum_add_distrib]
  refine Finset.sum_congr rfl fun k _ => ?_
  by_cases h1 : k.val ≤ n
  · have h2 : k ≠ j := fun h => by rw [h] at h1; omega
    rw [if_pos (by omega), if_pos h1, if_neg h2, add_zero]
  · by_cases h2 : k = j
    · rw [if_pos (by rw [h2]; omega), if_neg h1, if_pos h2, zero_add]
    · have h3 : ¬ k.val ≤ n + 1 := fun h => h2 (Fin.ext (by omega))
      rw [if_neg h3, if_neg h1, if_neg h2, add_zero]

/-- Past the last index the running sum is the whole sum. -/
theorem prefix_all {M : Type*} [AddCommMonoid M] {N : ℕ} (f : Fin N → M) (n : ℕ) (hn : N ≤ n + 1) :
    (∑ k : Fin N, if k.val ≤ n then f k else 0) = ∑ k : Fin N, f k :=
  Finset.sum_congr rfl fun k _ => if_pos (by have := k.isLt; omega)

end Cert.Lib.PrefixSum
-- ==== Proof.Running.lean ====
/-
  The running column, point by point.  After the point that is tile `n % 125` of row block `n / 125`, row `p` of the
  running column holds the shares of tiles `0 … n % 125` of row `32 (n / 125) + p`: the first tile of a row block starts
  from the zero column, every later tile adds its share to what the point before left.  At the last tile of a row block
  that is the whole row, and it is what the point copies into the output block.
-/
import proofs.«168247_j36481452212940_1_alg».proof.Proof.PieceValue
import proofs.«168247_j36481452212940_1_alg».proof.Proof.TileValue
import proofs.«168247_j36481452212940_1_alg».proof.Proof.BlockRead
import proofs.«168247_j36481452212940_1_alg».proof.Proof.LibPrefixSum

noncomputable section

open Idealize.ShloMosaic Idealize.ShloMosaic.TcCoe Idealize.ShloMosaic.ValueIdx Idealize.SL.Sem
open scoped BigOperators

namespace Cert.KernelIdeal.Running

open Cert.KernelIdeal Cert.KernelIdeal.Gen Cert.Spec Cert.Lib.PrefixSum

variable (m : (ℓ : Loc nD τ sig) → Buf (Elt Ideal) ℓ)

/-- The observations and the exponents as the region finds them. -/
abbrev zArr (c : Dev nD) : Obs := V m c main_arg0
abbrev bArr (c : Dev nD) : Expo := V m c main_v4

/-- A point's share, computed from its blocks, is the specification's share of its tile and row. -/
theorem tile_at (c : Dev nD) (t : Fin cfg0.N) (p : Fin 32) (i : Fin 64) (j : Fin 125)
    (hi : i.val = 32 * (t.val / 125) + p.val) (hj : j.val = t.val % 125) :
    Tile.tileSum (iblk m c 1 t : Vec Ideal S32x8x128x3 .f32) (iblk m c 0 t : Vec Ideal S32x1 .f32) p
      = rowTile (zArr m c) (bArr m c) i j := by
  unfold Tile.tileSum rowTile obsScore
  refine Finset.sum_congr rfl fun r _ => Finset.sum_congr rfl fun o _ => ?_
  rw [Block.bblk_apply m c t p i hi]
  refine congrArg (score _) (congrArg norm2 (funext fun k => ?_))
  exact Block.zblk_apply m c t p r o k i ⟨j.val * 8 + r.val, step_lt j r⟩ hi (by show j.val * 8 + r.val = _; rw [hj])

/-- One point's step: the column it stores over a running column `xs`, at row `p`. -/
theorem step (c : Dev nD) (t : Fin cfg0.N) (xs : Vec Ideal S32x1 .f32) (p : Fin 32) (i : Fin 64) (j : Fin 125)
    (hi : i.val = 32 * (t.val / 125) + p.val) (hj : j.val = t.val % 125) :
    k0_pay2 (F := Ideal) (iblk m c 1 t : Vec Ideal S32x8x128x3 .f32) (iblk m c 0 t : Vec Ideal S32x1 .f32) xs (ix2 p 0)
      = xs (ix2 p 0) + rowTile (zArr m c) (bArr m c) i j := by
  rw [Tile.pay2_apply, tile_at m c t p i j hi hj]

/-- The first tile of a row block: the running column holds that tile's share alone. -/
theorem first_eq (c : Dev nD) (t : Fin cfg0.N) (h0 : t.val % 125 = 0) (p : Fin 32) (i : Fin 64)
    (hi : i.val = 32 * (t.val / 125) + p.val) :
    (outsAt0 m c t.val t.isLt).2 (ix2 p 0)
      = ∑ k : Fin 125, if k.val ≤ t.val % 125 then rowTile (zArr m c) (bArr m c) i k else 0 := by
  have h1 : ¬t.val % 125 = 124 := by omega
  rw [outsAt0_A m c t h0 h1]
  dsimp only
  rw [Piece.sout_A, step m c t _ p i ⟨0, by decide⟩ hi (by rw [h0]), Tile.pay1_apply, zero_add, h0]
  exact (prefix_zero _ _ rfl).symm

/-- THE INVARIANT, by induction on the point. -/
theorem scratch_eq (c : Dev nD) : ∀ (n : ℕ) (hn : n < cfg0.N) (p : Fin 32) (i : Fin 64), i.val = 32 * (n / 125) + p.val →
    (outsAt0 m c n hn).2 (ix2 p 0)
      = ∑ k : Fin 125, if k.val ≤ n % 125 then rowTile (zArr m c) (bArr m c) i k else 0
  | 0, hn, p, i, hi => first_eq m c ⟨0, hn⟩ rfl p i hi
  | n + 1, hn, p, i, hi => by
    have hN : n + 1 < 250 := lt_of_lt_of_eq hn N_0
    by_cases h0 : (n + 1) % 125 = 0
    · exact first_eq m c ⟨n + 1, hn⟩ h0 p i hi
    · have ih := scratch_eq c n (Nat.lt_of_succ_lt hn) p i (by omega)
      have e : (n + 1) % 125 = n % 125 + 1 := by omega
      have hj : (⟨(n + 1) % 125, Nat.mod_lt _ (by decide)⟩ : Fin 125).val = n % 125 + 1 := e
      by_cases h1 : (n + 1) % 125 = 124
      · rw [outsAt0_C m c ⟨n + 1, hn⟩ h0 h1]
        dsimp only
        rw [Piece.sout_C, step m c ⟨n + 1, hn⟩ _ p i ⟨(n + 1) % 125, Nat.mod_lt _ (by decide)⟩ hi rfl]
        refine (congrArg (· + _) ih).trans ?_
        refine (prefix_succ (fun k => rowTile (zArr m c) (bArr m c) i k) (n % 125) _ hj).symm.trans ?_
        rw [← e]
      · rw [outsAt0_B m c ⟨n + 1, hn⟩ h0 h1]
        dsimp only
        rw [Piece.sout_B, step m c ⟨n + 1, hn⟩ _ p i ⟨(n + 1) % 125, Nat.mod_lt _ (by decide)⟩ hi rfl]
        refine (congrArg (· + _) ih).trans ?_
        refine (prefix_succ (fun k => rowTile (zArr m c) (bArr m c) i k) (n % 125) _ hj).symm.trans ?_
        rw [← e]

/-- At the last tile of a row block the output block's row `p` is the whole row of the result. -/
theorem out_eq (c : Dev nD) (t : Fin cfg0.N) (h1 : t.val % 125 = 124) (p : Fin 32) (i : Fin 64)
    (hi : i.val = 32 * (t.val / 125) + p.val) :
    (outsAt0 m c t.val t.isLt).1 (ix2 p 0) = rawScore (zArr m c) (bArr m c) i := by
  have h0 : ¬t.val % 125 = 0 := by omega
  have e1 : (outsAt0 m c t.val t.isLt).1 = (outsAt0 m c t.val t.isLt).2 := by
    rw [outsAt0_C m c t h0 h1]
    dsimp only
    rw [Piece.out_C, Piece.sout_C]
  rw [e1, scratch_eq m c t.val t.isLt p i hi, h1]
  exact prefix_all _ 124 (by decide)

end Cert.KernelIdeal.Running

end
-- ==== Proof.OutArray.lean ====
/-
  The kernel's output array after the run.  The pipeline writes the output block back only at the last tile of each
  row block, and that block holds rows `32 (t / 125) … 32 (t / 125) + 31`; the two write-backs together cover the 64
  rows.  Each written row is the whole row of the result, so the array ends as the result column.
-/
import proofs.«168247_j36481452212940_1_alg».proof.Proof.Running

noncomputable section

open Idealize.ShloMosaic Idealize.ShloMosaic.TcCoe Idealize.ShloMosaic.ValueIdx Idealize.SL.Sem
open Idealize.ShloMosaic.Pipeline (Dat)
open scoped BigOperators

namespace Cert.KernelIdeal.OutArray

open Cert.KernelIdeal Cert.KernelIdeal.Gen Cert.Spec Cert.KernelIdeal.Running

variable (m : (ℓ : Loc nD τ sig) → Buf (Elt Ideal) ℓ)

/-- The result column: row `i` holds the row's total score. -/
def outCol (c : Dev nD) : Buf (Elt Ideal) ((c : Thread nD τ).loc main_v5) :=
  fun j => rawScore (zArr m c) (bArr m c) ⟨(j 0).val, (j 0).isLt⟩

/-- What a write-back writes is its block of the result column. -/
theorem flushed_eq (c : Dev nD) (t : Fin cfg0.N) (hf : (cfg0.win 2).flush t = true) :
    (dats m 0 c).flushed 2 t = ((cfg0.win 2).blk t).view.read (Elt Ideal) (outCol m c) := by
  have h1 : t.val % 125 = 124 := (flush0_2 t).mp hf
  have hN : t.val < 250 := lt_of_lt_of_eq t.isLt N_0
  obtain ⟨-, -, -, -, -, -, e0, e1⟩ := Block.idx_facts t
  show (cfg0.win 2).cut (grid0.coords t) ((dats m 0 c).after 2 t) = _
  rw [after0_2]
  funext y
  have hy0 : (y 0).val < 32 := (y 0).isLt
  have hy1 : (y 1).val < 1 := (y 1).isLt
  rw [View.read_apply]
  show (outsAt0 m c t.val t.isLt).1 y = outCol m c (((cfg0.win 2).blk t).view.emb y)
  have ey : (y : S32x1.Idx) = ix2 (⟨(y 0).val, hy0⟩ : Fin 32) 0 :=
    funext fun a => Fin.ext (by
      match a with
      | ⟨0, _⟩ => rfl
      | ⟨1, _⟩ => show (y 1).val = 0; omega)
  rw [ey, Running.out_eq m c t h1 ⟨(y 0).val, hy0⟩ ⟨32 * (t.val / 125) + (y 0).val, by omega⟩ rfl]
  unfold outCol
  refine congrArg (rawScore (zArr m c) (bArr m c)) (Fin.ext ?_)
  show 32 * (t.val / 125) + (y 0).val = win0_2.index t (0 : Fin 2) * 32 + 1 * (y 0).val
  omega

/-- An index of the array is in point `t`'s block iff each coordinate is in the block's range on its axis. -/
theorem mem_blk (t : Fin cfg0.N) (i : S64x1.Idx) :
    i ∈ ((cfg0.win 2).blk t).view.set ↔ ∀ a : Fin 2, win0_2.index t a * S32x1.size a ≤ (i a).val
      ∧ (i a).val < win0_2.index t a * S32x1.size a + S32x1.size a := by
  show i ∈ ((View.whole main_v5).slice (win0_2.rect t)).set ↔ _
  rw [View.set_slice_whole, Rect.mem_set_unit]
  exact Iff.rfl

/-- Every row is in the block written back at the last tile of its row block. -/
theorem cover (i : S64x1.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hN : cfg0.N = 250 := N_0
  have ht : (i 0).val / 32 * 125 + 124 < cfg0.N := by omega
  obtain ⟨-, -, -, -, -, -, e0, e1⟩ := Block.idx_facts ⟨(i 0).val / 32 * 125 + 124, ht⟩
  have ev : (⟨(i 0).val / 32 * 125 + 124, ht⟩ : Fin cfg0.N).val = (i 0).val / 32 * 125 + 124 := rfl
  refine ⟨⟨(i 0).val / 32 * 125 + 124, ht⟩, (flush0_2 _).mpr (by rw [ev]; omega), ?_⟩
  rw [mem_blk]
  intro a
  match a with
  | ⟨0, _⟩ =>
    show win0_2.index ⟨(i 0).val / 32 * 125 + 124, ht⟩ (0 : Fin 2) * 32 ≤ (i 0).val
      ∧ (i 0).val < win0_2.index ⟨(i 0).val / 32 * 125 + 124, ht⟩ (0 : Fin 2) * 32 + 32
    omega
  | ⟨1, _⟩ =>
    show win0_2.index ⟨(i 0).val / 32 * 125 + 124, ht⟩ (1 : Fin 2) * 1 ≤ (i 1).val
      ∧ (i 1).val < win0_2.index ⟨(i 0).val / 32 * 125 + 124, ht⟩ (1 : Fin 2) * 1 + 1
    omega

/-- THE ARRAY after the run is the result column. -/
theorem final (c : Dev nD) : (dats m 0 c).arrAt 2 cfg0.N = outCol m c :=
  (dats m 0 c).arrAt_eq_of_cover 2 (outCol m c) (flushed_eq m c) (cover)

end Cert.KernelIdeal.OutArray

end
-- ==== Proof.RefRead.lean ====
/-
  The reference's first result is the specification's row total.  Its last stage sums the 64×1000×128 array of scores
  over the time and lane axes from the zero word: the indices that drop to row `i` are exactly the `(i, t, o)`, so the
  stage at `i` is the double sum over `t` and `o`.  Each score is the specification's: the squared length is the sum of
  the three squares (from the zero word), the exponent is the row's entry of the exponent column carried through a
  reshape and a broadcast that keep the row, and the host's `exp`, comparison and select are the kernel's.
-/
import proofs.«168247_j36481452212940_1_alg».proof.Proof.Gen.ReferenceIdeal.Read
import proofs.«168247_j36481452212940_1_alg».proof.Proof.Spec
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Spec

/-- Dropping the time and lane coordinates of `(i, t, o)` leaves `i`; -/
theorem drop_ix3 (i : Fin 64) (t : Fin 1000) (o : Fin 128) :
    reducesTo_S64x1000x128_S64_d1_2.drop (ix3 i t o) = ix1 i :=
  funext fun a => by match a with | ⟨0, _⟩ => rfl

/-- and an index that drops to `i` is `(i, its time step, its lane)`. -/
theorem eq_ix3_of_drop (j : S64x1000x128.Idx) (i : Fin 64) (h : reducesTo_S64x1000x128_S64_d1_2.drop j = ix1 i) :
    j = ix3 i (j 1) (j 2) := by
  have h0 : j 0 = i := congrFun h 0
  funext a
  match a with
  | ⟨0, _⟩ => exact h0
  | ⟨1, _⟩ => rfl
  | ⟨2, _⟩ => rfl

/-- The indices of row `i`, one per time step and lane. -/
def rowEmb (i : Fin 64) : Fin 1000 × Fin 128 ↪ S64x1000x128.Idx :=
  ⟨fun q => ix3 i q.1 q.2, fun q q' h => Prod.ext (congrFun h 1) (congrFun h 2)⟩

theorem filter_drop (i : Fin 64) :
    Finset.univ.filter (fun j : S64x1000x128.Idx => reducesTo_S64x1000x128_S64_d1_2.drop j = ix1 i)
      = Finset.univ.map (rowEmb i) := by
  ext j
  simp only [Finset.mem_filter, Finset.mem_univ, true_and, Finset.mem_map, rowEmb, Function.Embedding.coeFn_mk]
  exact ⟨fun h => ⟨(j 1, j 2), (eq_ix3_of_drop j i h).symm⟩, fun ⟨q, hq⟩ => hq ▸ drop_ix3 i q.1 q.2⟩

/-- The sum over time steps and lanes from the zero word, at row `i`. -/
theorem sum_rows (y : S64x1000x128.Idx → EReal) (i : Fin 64) :
    Host.reduceAdd (F := Ideal) (φ := .f32) y (constant (F := Ideal) S_ .f32 0x00000000#32) reducesTo_S64x1000x128_S64_d1_2 h_S_ (ix1 i)
      = ∑ t : Fin 1000, ∑ o : Fin 128, y (ix3 i t o) := by
  simp only [Host.reduceAdd, Ideal.hostReduceAdd_def]
  unfold Ideal.hostReduceAdd
  rw [filter_drop, Finset.sum_map, Fintype.sum_prod_type]
  show Ideal.ofBits .f32 0x00000000#32 + _ = _
  rw [Ideal.ofBits_zero_f32, zero_add]
  rfl

/-- One score of the reference is the specification's, over the observations and the reference's exponent column. -/
theorem score_apply (x0 : (⟨S64x1000x128x3, .f32⟩ : BufTy).Contents (Elt Ideal)) (x1 : (⟨S64x1, .f32⟩ : BufTy).Contents (Elt Ideal))
    (i : Fin 64) (t : Fin 1000) (o : Fin 128) :
    val_main_v13 (F := Ideal) x0 x1 (ix3 i t o) = obsScore x0 (val_main_v4 (F := Ideal) x1) i t o := by
  have e7 : ∀ k : Fin 3, idx_main_v7 (ix3 i t o) k = ix4 i t o k := fun k =>
    funext fun a => Fin.ext (by match a with | ⟨0, _⟩ => rfl | ⟨1, _⟩ => rfl | ⟨2, _⟩ => rfl | ⟨3, _⟩ => rfl)
  have e5 : idx_main_v5 (idx_main_v10 (ix3 i t o)) = ix2 i 0 :=
    funext fun a => Fin.ext (by
      match a with
      | ⟨0, _⟩ => show ((i.val * 1 + 0) * 1 + 0) / 1 = i.val; omega
      | ⟨1, _⟩ => rfl)
  have hn : val_main_v7 (F := Ideal) x0 (ix3 i t o) = norm2 fun k => x0 (ix4 i t o k) := by
    rw [val_main_v7_apply]
    simp only [val_main_cst_1_apply, val_main_v6_apply, e7, Ideal.ofBits_def, Ideal.mulf_def]
    rw [Ideal.ofBits_zero_f32, zero_add]
    rfl
  rw [val_main_v13_apply, val_main_v9_apply, val_main_v12_apply, val_main_v11_apply, val_main_v10_apply,
    val_main_v5_apply, val_main_v8_apply, val_main_cst_2_apply, val_main_call0_v0_apply, val_main_cst_3_apply, hn, e5]
  rfl

/-- THE REFERENCE'S FIRST RESULT at row `i` is the specification's row total. -/
theorem val_v14_apply (x0 : (⟨S64x1000x128x3, .f32⟩ : BufTy).Contents (Elt Ideal)) (x1 : (⟨S64x1, .f32⟩ : BufTy).Contents (Elt Ideal))
    (i : Fin 64) :
    val_main_v14 (F := Ideal) x0 x1 (ix1 i) = rawScore x0 (val_main_v4 (F := Ideal) x1) i := by
  unfold val_main_v14
  rw [rawScore_eq]
  refine (sum_rows (val_main_v13 (F := Ideal) x0 x1) i).trans ?_
  exact Finset.sum_congr rfl fun t _ => Finset.sum_congr rfl fun o _ => score_apply x0 x1 i t o

end Cert.ReferenceIdeal.RefValue

end
-- ==== Proof.KernelRun.lean ====
/-
  The kernel's program, read to its four results.  After the region the program reshapes the output column to a
  64-vector (the first result) and computes the other three from the exponents' source column `1 / (R * R)`, the
  observation count and that vector, by the same host operations, in the same order, as the reference.  So each result
  is the reference's stage function of the same name applied to the argument arrays: for the first one because the
  output column is the specification's row total, which is what the reference's two-axis sum computes; for the others
  because the two terms are the same term.
-/
import proofs.«168247_j36481452212940_1_alg».proof.Proof.OutArray
import proofs.«168247_j36481452212940_1_alg».proof.Proof.RefRead
import Idealize.ShloMosaic.Lib.StableHlo.Run
import Idealize.ShloMosaic.Lib.Tactic

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Result

open Cert.KernelIdeal Cert.KernelIdeal.Gen Cert.Spec Cert.ReferenceIdeal.Read

variable (m : (ℓ : Loc nD τ sig) → Buf (Elt Ideal) ℓ) (ρ : Dev nD → PrngReg)

/-- The exponent column the region finds is the reference's exponent stage of the second argument. -/
theorem V_v4 (c : Dev nD) :
    V m c main_v4 = val_main_v4 (F := Ideal) (m ((c : Thread nD τ).loc main_arg1)) := by
  show StableHlo.after hostOps0 (fun b => m (c, b)) (Proc.devRef .tc main_v4) = _
  after_results
  rfl

/-- The buffers as the region leaves them (its three arrays at what the run computed, the rest as it found them), read
    at the three the later operations use: the output column, the column `1 / (R * R)`, the observation count. -/
theorem W_v5 (c : Dev nD) : Pipeline.withArrays (cfgs 0).spec c (V0 m c) (fun w => (dats m 0 c).arrAt w (cfgs 0).N) (Proc.devRef .tc main_v5) = OutArray.outCol m c :=
  (Pipeline.withArrays_arr spec0 launch0.win.arr_inj c _ _ 2).trans (OutArray.final m c)

theorem W_v2 (c : Dev nD) :
    Pipeline.withArrays (cfgs 0).spec c (V0 m c) (fun w => (dats m 0 c).arrAt w (cfgs 0).N) (Proc.devRef .tc main_v2) = val_main_v2 (F := Ideal) (m ((c : Thread nD τ).loc main_arg1)) := by
  rw [Pipeline.withArrays_of_ne _ c (V0 m c) _ main_v2 (by exact (by decide : ∀ w, Pipeline.arrRef spec0 w ≠ main_v2))]
  show StableHlo.after hostOps0 (fun b => m (c, b)) (Proc.devRef .tc main_v2) = _
  after_results
  rfl

theorem W_arg2 (c : Dev nD) : Pipeline.withArrays (cfgs 0).spec c (V0 m c) (fun w => (dats m 0 c).arrAt w (cfgs 0).N) (Proc.devRef .tc main_arg2) = m ((c : Thread nD τ).loc main_arg2) := by
  rw [Pipeline.withArrays_of_ne _ c (V0 m c) _ main_arg2 (by exact (by decide : ∀ w, Pipeline.arrRef spec0 w ≠ main_arg2))]
  exact V_main_arg2 m c

/-- The output column as a 64-vector is the reference's first result. -/
theorem raw_eq (c : Dev nD) :
    shapeCast S64 (OutArray.outCol m c) shapeCasts_S64x1_S64
      = val_main_v14 (F := Ideal) (m ((c : Thread nD τ).loc main_arg0)) (m ((c : Thread nD τ).loc main_arg1)) := by
  funext j
  obtain ⟨i, rfl⟩ : ∃ i : Fin 64, j = ix1 i := ⟨j 0, eq_ix1 j⟩
  rw [Cert.ReferenceIdeal.RefValue.val_v14_apply]
  refine (shapeCast_apply (s := S64x1) (t := S64) (OutArray.outCol m c) shapeCasts_S64x1_S64 (ix1 i) (ix2 i 0) ?_).trans ?_
  · show ((⟨2, ![64, 1]⟩ : Shape).rowMajor (ix2 i 0)).val = ((⟨1, ![64]⟩ : Shape).rowMajor (ix1 i)).val
    rw [Shape.rowMajor_val_one, Shape.rowMajor_val_two]
    simp
  · show rawScore (Running.zArr m c) (Running.bArr m c) i = _
    unfold Running.zArr Running.bArr
    rw [V_main_arg0 m c, V_v4 m c]

theorem tail_v6 (c : Dev nD) :
    Pipeline.afterTail₀ cfgs (dats m) 0 (V0 m) [hostOps1] c main_v6
      = val_main_v14 (F := Ideal) (m ((c : Thread nD τ).loc main_arg0)) (m ((c : Thread nD τ).loc main_arg1)) := by
  unfold Pipeline.afterTail₀
  show StableHlo.after hostOps1 _ (Proc.devRef .tc main_v6) = _
  after_results_simp
  rw [W_v5]
  exact raw_eq m c

theorem tail_v30 (c : Dev nD) :
    Pipeline.afterTail₀ cfgs (dats m) 0 (V0 m) [hostOps1] c main_v30
      = val_main_v38 (F := Ideal) (m ((c : Thread nD τ).loc main_arg1)) (m ((c : Thread nD τ).loc main_arg2)) := by
  unfold Pipeline.afterTail₀
  show StableHlo.after hostOps1 _ (Proc.devRef .tc main_v30) = _
  after_results_simp
  rw [W_v2, W_arg2]
  rfl

theorem tail_v32 (c : Dev nD) :
    Pipeline.afterTail₀ cfgs (dats m) 0 (V0 m) [hostOps1] c main_v32
      = val_main_v40 (F := Ideal) (m ((c : Thread nD τ).loc main_arg1)) (m ((c : Thread nD τ).loc main_arg2)) := by
  unfold Pipeline.afterTail₀
  show StableHlo.after hostOps1 _ (Proc.devRef .tc main_v32) = _
  after_results_simp
  rw [W_v2, W_arg2]
  rfl

theorem tail_v38 (c : Dev nD) :
    Pipeline.afterTail₀ cfgs (dats m) 0 (V0 m) [hostOps1] c main_v38
      = val_main_v46 (F := Ideal) (m ((c : Thread nD τ).loc main_arg0)) (m ((c : Thread nD τ).loc main_arg1))
          (m ((c : Thread nD τ).loc main_arg2)) := by
  unfold Pipeline.afterTail₀
  show StableHlo.after hostOps1 _ (Proc.devRef .tc main_v38) = _
  after_results_simp
  rw [W_v5, W_v2, W_arg2]
  exact congrArg (fun r => subf (subf r _) _) (raw_eq m c)

/-- THE KERNEL'S RUN: every weakly fair execution terminates with the four results at the reference's stage functions
    of the argument arrays, and the arguments unchanged. -/
theorem run : θ_run defs (onTc (τ := τ) (main (F := Ideal))) ⟨m, fun _ => 0, ρ⟩ fun r => ∀ c : Dev nD,
      r.2.mem ((c.tc : Thread nD τ).loc main_v6)
        = val_main_v14 (F := Ideal) (m ((c.tc : Thread nD τ).loc main_arg0)) (m ((c.tc : Thread nD τ).loc main_arg1))
      ∧ r.2.mem ((c.tc : Thread nD τ).loc main_v30)
        = val_main_v38 (F := Ideal) (m ((c.tc : Thread nD τ).loc main_arg1)) (m ((c.tc : Thread nD τ).loc main_arg2))
      ∧ r.2.mem ((c.tc : Thread nD τ).loc main_v32)
        = val_main_v40 (F := Ideal) (m ((c.tc : Thread nD τ).loc main_arg1)) (m ((c.tc : Thread nD τ).loc main_arg2))
      ∧ r.2.mem ((c.tc : Thread nD τ).loc main_v38)
        = val_main_v46 (F := Ideal) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v6 (Pipeline.mem_restRefs_of main_v6 (by decide) (by decide))).trans (tail_v6 m c),
      ((h c).2 main_v30 (Pipeline.mem_restRefs_of main_v30 (by decide) (by decide))).trans (tail_v30 m c),
      ((h c).2 main_v32 (Pipeline.mem_restRefs_of main_v32 (by decide) (by decide))).trans (tail_v32 m c),
      ((h c).2 main_v38 (Pipeline.mem_restRefs_of main_v38 (by decide) (by decide))).trans (tail_v38 m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  The kernel sums masked exponential scores of 64 × 1000 × 128 observations into one number per row, walking the 1000
  time steps in 125 tiles of 8 and keeping a running column between tiles; the reference sums each row's 1000 × 128
  scores at once.  Over the extended reals both are the same finite sum, regrouped (a sum in a commutative monoid, so
  nothing is asked of the inputs), and the three further results are computed from it, the column `1 / (R * R)` and the
  observation count by the same operations on both sides.

  The modules: Spec (the score, a tile's share, the row total, tile by tile = all at once), TileValue (one grid point's
  stored column at a row), PieceValue (what each case of the body leaves, as that column), BlockRead (where a point's
  blocks sit in their arrays), Running (the running column after every point, by induction), OutArray (the output array
  after the run), RefRead (the reference's two-axis sum at a row), KernelRun (the kernel's four results as the
  reference's stage functions of the arguments).  Here: the three frames, the empty ledger, and the two runs side by side.
-/
import proofs.«168247_j36481452212940_1_alg».proof.Defs
import proofs.«168247_j36481452212940_1_alg».proof.Proof.Gen.Kernel
import proofs.«168247_j36481452212940_1_alg».proof.Proof.Gen.Kernel.Frame
import proofs.«168247_j36481452212940_1_alg».proof.Proof.Gen.KernelIdeal
import proofs.«168247_j36481452212940_1_alg».proof.Proof.Gen.KernelIdeal.Frame
import proofs.«168247_j36481452212940_1_alg».proof.Proof.Gen.ReferenceIdeal
import proofs.«168247_j36481452212940_1_alg».proof.Proof.Gen.ReferenceIdeal.Run
import proofs.«168247_j36481452212940_1_alg».proof.Proof.Gen.ReferenceIdeal.Read
import proofs.«168247_j36481452212940_1_alg».proof.Proof.Gen.Pre_finite_inputs
import proofs.«168247_j36481452212940_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel and its idealization run, fault-free, with their arguments unchanged: the generated frames. -/
theorem frame_k : Cert.frame_Kernel := fun m ρ _ => Cert.Kernel.Gen.frame m ρ
theorem frame_ki : Cert.frame_KernelIdeal := fun m ρ _ => Cert.KernelIdeal.Gen.frame m ρ

/-- The reference is a straight line of host operations: its generated run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- Both programs end with each result at the reference's stage function of the (agreeing) arguments. -/
theorem algebraic : Cert.algebraic_KernelIdeal_ReferenceIdeal := by
  intro m ρ m' ρ' _ hagree
  refine ⟨_, _, _, _, Cert.KernelIdeal.Result.run m ρ, ?_⟩
  refine (θ_run Cert.ReferenceIdeal.defs _ _).mono (fun _ h c => ?_) (Cert.ReferenceIdeal.Value.run (F := Ideal) m' ρ')
  obtain ⟨h1, h2, h3, h4, h5, h6, h7⟩ := h c
  obtain ⟨a0, a1, a2⟩ := hagree c
  refine ⟨h1.trans ?_, h2.trans ?_, h3.trans ?_, h4.trans ?_, h5, h6, h7⟩
  · rw [Cert.ReferenceIdeal.Read.val_main_v14_eq, a0, a1]
  · rw [Cert.ReferenceIdeal.Read.val_main_v38_eq, a1, a2]
  · rw [Cert.ReferenceIdeal.Read.val_main_v40_eq, a1, a2]
  · rw [Cert.ReferenceIdeal.Read.val_main_v46_eq, a0, a1, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
